-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel

variable [Facts]

def fn {F : FTy → Type} [FloatOps F] (main_arg0 : FVec F S8x8192x512 .f32) (main_arg1 : FVec F S8x8192x512 .f32) (main_arg2 : FVec F S8x8192x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x8192x512 .f32 := Host.absf main_arg1
  let main_cst_0 : FVec F S_ .f32 := constant S_ .f32 0x7F800000#32
  let main_v5 : FVec F S8x8192x512 .f32 := broadcastInDim S8x8192x512 ![] bcast_S_S8x8192x512 main_cst_0
  let main_v6 : IVec S8x8192x512 1 := cmpf .olt main_v4 main_v5
  let main_c_1 : IVec S_ 1 := constantI S_ 1 1#1
  let main_v7 : IVec S_ 1 := (fun x v => Host.reduce IntOp.andi x v reducesTo_S8x8192x512_S_d0_1_2 h_S_) main_v6 main_c_1
  let main_v8 : IVec S_ 1 := andi main_v3 main_v7
  let main_v9 : FVec F S8x8192x512 .f32 := Host.absf main_arg2
  let main_cst_2 : FVec F S_ .f32 := constant S_ .f32 0x7F800000#32
  let main_v10 : FVec F S8x8192x512 .f32 := broadcastInDim S8x8192x512 ![] bcast_S_S8x8192x512 main_cst_2
  let main_v11 : IVec S8x8192x512 1 := cmpf .olt main_v9 main_v10
  let main_c_3 : IVec S_ 1 := constantI S_ 1 1#1
  let main_v12 : IVec S_ 1 := (fun x v => Host.reduce IntOp.andi x v reducesTo_S8x8192x512_S_d0_1_2 h_S_) main_v11 main_c_3
  let main_v13 : IVec S_ 1 := andi main_v8 main_v12
  main_v13
-- ==== Kernel.lean ====
abbrev S8x8192x512 : Shape := ⟨3, ![8, 8192, 512]⟩
abbrev S8x2x8192 : Shape := ⟨3, ![8, 2, 8192]⟩
abbrev S8x256x512 : Shape := ⟨3, ![8, 256, 512]⟩
abbrev S8x2x256 : Shape := ⟨3, ![8, 2, 256]⟩
abbrev S8x256 : Shape := ⟨2, ![8, 256]⟩
abbrev S8x1x256 : Shape := ⟨3, ![8, 1, 256]⟩
abbrev S8x16384 : Shape := ⟨2, ![8, 16384]⟩

abbrev nBuf : Space → Nat
  | .hbm => 5
  | .vmem => 8
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x2x8192, .f32⟩
  | .hbm, ⟨4, _⟩ => ⟨S8x16384, .f32⟩
  | .local _ .vmem, ⟨0, _⟩ => ⟨S8x256x512, .f32⟩
  | .local _ .vmem, ⟨1, _⟩ => ⟨S8x256x512, .f32⟩
  | .local _ .vmem, ⟨2, _⟩ => ⟨S8x256x512, .f32⟩
  | .local _ .vmem, ⟨3, _⟩ => ⟨S8x256x512, .f32⟩
  | .local _ .vmem, ⟨4, _⟩ => ⟨S8x256x512, .f32⟩
  | .local _ .vmem, ⟨5, _⟩ => ⟨S8x256x512, .f32⟩
  | .local _ .vmem, ⟨6, _⟩ => ⟨S8x2x256, .f32⟩
  | .local _ .vmem, ⟨7, _⟩ => ⟨S8x2x256, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S8x256x512_S8x256x512_0_0_0 : ∀ a, (![0, 0, 0] : Fin 3 → Nat) a + S8x256x512.size a ≤ S8x256x512.size a
  h_S8x256x512 : 0 < S8x256x512.numel
  reduces_S8x256x512_S8x256 : S8x256x512.Reduces [2] S8x256
  inb_S8x2x256_S8x1x256_0_0_0 : ∀ a, (![0, 0, 0] : Fin 3 → Nat) a + S8x1x256.size a ≤ S8x2x256.size a
  h_S8x1x256 : 0 < S8x1x256.numel
  shapeCasts_S8x1x256_S8x256 : S8x1x256.ShapeCasts S8x256
  shapeCasts_S8x256_S8x1x256 : S8x256.ShapeCasts S8x1x256
  inb_S8x2x256_S8x1x256_0_1_0 : ∀ a, (![0, 1, 0] : Fin 3 → Nat) a + S8x1x256.size a ≤ S8x2x256.size a
  shapeCasts_S8x2x8192_S8x16384 : S8x2x8192.ShapeCasts S8x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x8192x512.size a
  hwx0_0 : ∀ i : grid0.Coords, EltTy.bits .f32 = 32 ∨ (Rect.block (s := S8x8192x512) S8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S8x8192x512.size a
  hwx0_1 : ∀ i : grid0.Coords, EltTy.bits .f32 = 32 ∨ (Rect.block (s := S8x8192x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x512.size a ≤ S8x8192x512.size a
  hwx0_2 : ∀ i : grid0.Coords, EltTy.bits .f32 = 32 ∨ (Rect.block (s := S8x8192x512) S8x256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x2x256.size a ≤ S8x2x8192.size a
  hwx0_3 : ∀ i : grid0.Coords, EltTy.bits .f32 = 32 ∨ (Rect.block (s := S8x2x8192) S8x2x256.size (cc0_transform_3 i) (hinb0_3 i)).WholeWords (EltTy.packing .f32)

variable [Facts₀]

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x2x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S_ : Shape := ⟨0, ![]⟩
abbrev S8x8192 : Shape := ⟨2, ![8, 8192]⟩
abbrev S8x8192x1 : Shape := ⟨3, ![8, 8192, 1]⟩
abbrev S8x16384 : Shape := ⟨2, ![8, 16384]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x8192x512, .f32⟩
  | .hbm, ⟨2, _⟩ => ⟨S8x8192x512, .f32⟩
  | .hbm, ⟨3, _⟩ => ⟨S8x8192x512, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S8x8192x512, .f32⟩
  | .hbm, ⟨12, _⟩ => ⟨S8x8192x512, .f32⟩
  | .hbm, ⟨13, _⟩ => ⟨S8x8192x512, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x1, .f32⟩
  | .hbm, ⟨18, _⟩ => ⟨S_, .f32⟩
  | .hbm, ⟨19, _⟩ => ⟨S8x8192x1, .f32⟩
  | .hbm, ⟨20, _⟩ => ⟨S8x8192x1, .f32⟩
  | .hbm, ⟨21, _⟩ => ⟨S8x8192x512, .f32⟩
  | .hbm, ⟨22, _⟩ => ⟨S8x8192x512, .f32⟩
  | .hbm, ⟨23, _⟩ => ⟨S8x8192x512, .f32⟩
  | .hbm, ⟨24, _⟩ => ⟨S_, .f32⟩
  | .hbm, ⟨25, _⟩ => ⟨S8x8192, .f32⟩
  | .hbm, ⟨26, _⟩ => ⟨S8x8192x512, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x1, .f32⟩
  | .hbm, ⟨31, _⟩ => ⟨S_, .f32⟩
  | .hbm, ⟨32, _⟩ => ⟨S8x8192x1, .f32⟩
  | .hbm, ⟨33, _⟩ => ⟨S8x8192x1, .f32⟩
  | .hbm, ⟨34, _⟩ => ⟨S8x8192x512, .f32⟩
  | .hbm, ⟨35, _⟩ => ⟨S8x8192x512, .f32⟩
  | .hbm, ⟨36, _⟩ => ⟨S8x8192x512, .f32⟩
  | .hbm, ⟨37, _⟩ => ⟨S_, .f32⟩
  | .hbm, ⟨38, _⟩ => ⟨S8x8192, .f32⟩
  | .hbm, ⟨39, _⟩ => ⟨S8x16384, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S8x8192x512_S8x8192_d2 : S8x8192x512.ReducesTo [2] S8x8192
  h_S_ : 0 < S_.numel
  bcast_S8x8192_S8x8192x1_0_1 : S8x8192.BroadcastsInDim S8x8192x1 (![0, 1] : Fin 2 → Fin S8x8192x1.rank)
  bcast_S_S8x8192x1 : S_.BroadcastsInDim S8x8192x1 (![] : Fin 0 → Fin S8x8192x1.rank)
  bcast_S8x8192x1_S8x8192x512_0_1_2 : S8x8192x1.BroadcastsInDim S8x8192x512 (![0, 1, 2] : Fin 3 → Fin S8x8192x512.rank)
  concatenates_S8x8192_S8x8192_S8x16384_d1 : Shape.Concatenates [S8x8192, S8x8192] S8x16384 1

variable [Facts₀]

class Facts : Prop extends Facts₀ where

variable [Facts]
-- ==== Proof.LibCat2.lean ====
/-
  Two arrays joined along an axis, as a function of the two arrays.

  The programs write the join of two arrays as an operation on a list of (shape, array) pairs, under a shape fact
  stated of that list; cat2 is the same join with the two arrays as plain arguments, so that an equation between the
  joined arrays follows from equations between the parts (a rewriting pass can then reach the two operands, which it
  cannot do through the list). Generic in the shapes, the axis and the element type.
-/
import Idealize.ShloMosaic.PureOps.Ideal.Laws

namespace Cert.LibCat2

open Idealize.ShloMosaic

/-- The join of p (shape s1) and q (shape s2) along axis a of the result shape t. -/
def cat2 {α : Type} (t : Shape) (a : Fin t.rank) (s1 s2 : Shape) (h : Shape.Concatenates [s1, s2] t a)
    (p : s1.Idx → α) (q : s2.Idx → α) : t.Idx → α :=
  concatenate t a [⟨s1, p⟩, ⟨s2, q⟩] h

/-- The join written on the list of pairs is cat2 of the two arrays. -/
theorem cat2_fun {α : Type} (t : Shape) (a : Fin t.rank) (s1 s2 : Shape) (h : Shape.Concatenates [s1, s2] t a) :
    (fun (p : s1.Idx → α) (q : s2.Idx → α) => concatenate t a [⟨s1, p⟩, ⟨s2, q⟩] h) = cat2 t a s1 s2 h := rfl

end Cert.LibCat2
-- ==== Proof.LibConcat.lean ====
/-
  Two arrays with the same number of rows joined along their second axis, read at coordinates.

  The join `[a, n₁] ++ [a, n₂] → [a, n]` keeps rows apart: at `(r, d)` it reads the first array at `(r, d)` when the
  column `d` lies below the first array's width `n₁`, and otherwise the second array at `(r, d − n₁)`.  The three
  lemmas name the operand's index by coordinates, so that they apply by unification at any extents.
-/
import Idealize.ShloMosaic.Lib.Pipeline.Value
import Idealize.ShloMosaic.Lib.ValueIdx

namespace Cert.LibConcat

open Idealize.ShloMosaic Idealize.ShloMosaic.ValueIdx

variable {α : Type}

/-- A column of the first piece: the join at `(r, d)` with `d < n₁` is the first array at `(r, d)`. -/
theorem concat_cols_left {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (r : Fin a) (d : Fin n)
    (hd : d.val < n1) :
    concatenate ⟨2, ![a, n]⟩ (1 : Fin 2) [⟨⟨2, ![a, n1]⟩, x1⟩, ⟨⟨2, ![a, n2]⟩, x2⟩] h (ix2 r d) = x1 (ix2 r ⟨d.val, hd⟩) :=
  concatenate_pair_apply_left (1 : Fin 2) x1 x2 h (ix2 r d) rfl (ix2 r ⟨d.val, hd⟩) (fun b => by
    match b with
    | ⟨0, _⟩ => rfl
    | ⟨1, _⟩ => rfl)

/-- A column of the second piece: the join at `(r, d)` with `n₁ ≤ d` is the second array at `(r, d − n₁)`. -/
theorem concat_cols_right {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (r : Fin a) (d : Fin n)
    (hd : n1 ≤ d.val) (hd2 : d.val - n1 < n2) :
    concatenate ⟨2, ![a, n]⟩ (1 : Fin 2) [⟨⟨2, ![a, n1]⟩, x1⟩, ⟨⟨2, ![a, n2]⟩, x2⟩] h (ix2 r d) = x2 (ix2 r ⟨d.val - n1, hd2⟩) :=
  concatenate_pair_apply_right (1 : Fin 2) x1 x2 h (ix2 r d) rfl rfl (ix2 r ⟨d.val - n1, hd2⟩)
    (fun b hb => by
      match b with
      | ⟨0, _⟩ => rfl
      | ⟨1, _⟩ => exact absurd (Fin.ext rfl) hb)
    (by show (d.val - n1) + n1 = d.val; omega)

/-- Both cases at once, as the choice on the column. -/
theorem concat_cols_apply {a n1 n2 n : ℕ} (x1 : (⟨2, ![a, n1]⟩ : Shape).Idx → α) (x2 : (⟨2, ![a, n2]⟩ : Shape).Idx → α)
    (h : Shape.Concatenates [(⟨2, ![a, n1]⟩ : Shape), ⟨2, ![a, n2]⟩] ⟨2, ![a, n]⟩ (1 : Fin 2)) (hn : n = n1 + n2)
    (r : Fin a) (d : Fin n) :
    concatenate ⟨2, ![a, n]⟩ (1 : Fin 2) [⟨⟨2, ![a, n1]⟩, x1⟩, ⟨⟨2, ![a, n2]⟩, x2⟩] h (ix2 r d)
      = if hd : d.val < n1 then x1 (ix2 r ⟨d.val, hd⟩)
        else x2 (ix2 r ⟨d.val - n1, by have := d.isLt; omega⟩) := by
  by_cases hd : d.val < n1
  · rw [dif_pos hd]; exact concat_cols_left x1 x2 h r d hd
  · rw [dif_neg hd]; exact concat_cols_right x1 x2 h r d (Nat.le_of_not_lt hd) _

end Cert.LibConcat
-- ==== Proof.CosSpec.lean ====
/-
  Row-wise cosine similarity with clamped norms, on the extended reals: the specification of both programs.

  For two rows x, y of n entries: the Euclidean norm of a row is clamped below by a small positive constant eps, and
  the similarity is written in the two arrangements the two programs use —
    cosK x y = (Σ x·y) / (‖x‖' · ‖y‖')             one quotient of the dot product, and
    cosR x y = Σ (x / ‖x‖') · (y / ‖y‖')            the dot product of the normalised rows,
  where ‖x‖' = max (√(Σ x²)) eps.  On real entries the two agree (CosLaw); at an infinite entry they need not, which is
  why the equivalence is claimed for finite inputs only.

  The result array [8, 16384] of three arrays s, h_rl, h_fk : [8, 8192, 512]: entry (b, j) compares row (b, j) of s with
  the same row of h_rl when j < 8192, and row (b, j − 8192) of s with that row of h_fk otherwise — the two [8, 8192]
  similarity tables side by side.
-/
import Idealize.ShloMosaic.PureOps.Ideal
import Idealize.ShloMosaic.Lib.ValueIdx

noncomputable section

namespace Cert.CosSpec

open Idealize.ShloMosaic Idealize.ShloMosaic.ValueIdx

/-- The clamp: the value of the f32 word of 1e-12. -/
def eps : EReal := Ideal.ofBits .f32 0x2B8CBCCC#32

/-- A row's Euclidean norm, clamped below by eps. -/
def cnorm {n : ℕ} (x : Fin n → EReal) : EReal := max (Ideal.sqrt (∑ k, x k * x k)) eps

/-- The dot product over the product of the clamped norms. -/
def cosK {n : ℕ} (x y : Fin n → EReal) : EReal := Ideal.div (∑ k, x k * y k) (cnorm x * cnorm y)

/-- The sum of the products of the normalised entries. -/
def cosR {n : ℕ} (x y : Fin n → EReal) : EReal := ∑ k, Ideal.div (x k) (cnorm x) * Ideal.div (y k) (cnorm y)

/-- The input arrays' type: [8, 8192, 512] extended reals. -/
abbrev Arr3 : Type := (⟨3, ![8, 8192, 512]⟩ : Shape).Idx → EReal

/-- Row (b, n) of an input array: its 512 entries. -/
def row (x : Arr3) (b : Fin 8) (n : Fin 8192) : Fin 512 → EReal := fun k => x (ix3 b n k)

/-- Entry (b, j) of the result for a similarity `f` of two rows: the left table below column 8192, the right one from it. -/
def tableAt (f : (Fin 512 → EReal) → (Fin 512 → EReal) → EReal) (s hrl hfk : Arr3) (b : Fin 8) (j : Fin 16384) : EReal :=
  if h : j.val < 8192 then f (row s b ⟨j.val, h⟩) (row hrl b ⟨j.val, h⟩)
  else f (row s b ⟨j.val - 8192, by have := j.isLt; omega⟩) (row hfk b ⟨j.val - 8192, by have := j.isLt; omega⟩)

/-- The result array for a similarity `f` of two rows. -/
def table (f : (Fin 512 → EReal) → (Fin 512 → EReal) → EReal) (s hrl hfk : Arr3) : (⟨2, ![8, 16384]⟩ : Shape).Idx → EReal :=
  fun i => tableAt f s hrl hfk (i 0) (i 1)

theorem table_ix2 (f : (Fin 512 → EReal) → (Fin 512 → EReal) → EReal) (s hrl hfk : Arr3) (b : Fin 8) (j : Fin 16384) :
    table f s hrl hfk (ix2 b j) = tableAt f s hrl hfk b j := rfl

/-- Two similarities that agree on the rows of the three arrays give the same result array. -/
theorem table_congr (f g : (Fin 512 → EReal) → (Fin 512 → EReal) → EReal) (s hrl hfk : Arr3)
    (h1 : ∀ b n, f (row s b n) (row hrl b n) = g (row s b n) (row hrl b n))
    (h2 : ∀ b n, f (row s b n) (row hfk b n) = g (row s b n) (row hfk b n)) :
    table f s hrl hfk = table g s hrl hfk := by
  funext i
  obtain ⟨b, j, rfl⟩ : ∃ (b : Fin 8) (j : Fin 16384), i = ix2 b j := ⟨i 0, i 1, eq_ix2 i⟩
  rw [table_ix2, table_ix2]
  unfold tableAt
  by_cases h : j.val < 8192
  · rw [dif_pos h, dif_pos h]; exact h1 b _
  · rw [dif_neg h, dif_neg h]; exact h2 b _

end Cert.CosSpec

end
-- ==== Proof.RefIsSpec.lean ====
/-
  The reference program computes the specification in its "normalise, then multiply and sum" arrangement.

  Read one operation at a time: the square of each entry summed over a row, its square root, the maximum with the
  clamp, broadcast back over the row, the entrywise quotient — that is x / ‖x‖' —, then the product of two normalised
  arrays summed over each row, which is cosR of the two rows; and the two [8, 8192] tables joined along the second axis,
  which at (b, j) is the left table's entry when j < 8192 and the right table's entry (b, j − 8192) otherwise.
-/
import proofs.«147456_j73598559584743_2_alg».proof.Proof.RefRead
import proofs.«147456_j73598559584743_2_alg».proof.Proof.LibConcat
import proofs.«147456_j73598559584743_2_alg».proof.Proof.CosSpec
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.ReadP Cert.CosSpec
open Idealize.ShloMosaic Idealize.ShloMosaic.ValueIdx

/-- The reference's clamped norm of row (b, n) of this input, as broadcast to every entry (b, n, k) of the row. -/
theorem norm_s (x0 : Arr3) (b : Fin 8) (n : Fin 8192) (k : Fin 512) :
    val_main_v6 (F := Ideal) x0 (ix3 b n k) = cnorm (row x0 b n) := by
  have e : ∀ k' : Fin 512, idx_main_v1 (idx_main_v2 (idx_main_v6 (ix3 b n k))) k' = ix3 b n k' := fun k' =>
    funext fun a => Fin.ext (by match a with | ⟨0, _⟩ => rfl | ⟨1, _⟩ => rfl | ⟨2, _⟩ => rfl)
  rw [val_main_v6_apply, val_main_v5_apply, val_main_v3_apply, val_main_v2_apply, val_main_v1_apply, val_main_v4_apply, val_main_cst_0_apply, val_main_cst_apply]
  simp only [e, val_main_v0_apply, Ideal.maximumf_def, Ideal.hostUnary_sqrt_def, Ideal.ofBits_def, Ideal.ofBits_zero_f32,
    Ideal.mulf_def, zero_add]
  rfl

/-- The reference's clamped norm of row (b, n) of this input, as broadcast to every entry (b, n, k) of the row. -/
theorem norm_rl (x1 : Arr3) (b : Fin 8) (n : Fin 8192) (k : Fin 512) :
    val_main_v14 (F := Ideal) x1 (ix3 b n k) = cnorm (row x1 b n) := by
  have e : ∀ k' : Fin 512, idx_main_v9 (idx_main_v10 (idx_main_v14 (ix3 b n k))) k' = ix3 b n k' := fun k' =>
    funext fun a => Fin.ext (by match a with | ⟨0, _⟩ => rfl | ⟨1, _⟩ => rfl | ⟨2, _⟩ => rfl)
  rw [val_main_v14_apply, val_main_v13_apply, val_main_v11_apply, val_main_v10_apply, val_main_v9_apply, val_main_v12_apply, val_main_cst_2_apply, val_main_cst_1_apply]
  simp only [e, val_main_v8_apply, Ideal.maximumf_def, Ideal.hostUnary_sqrt_def, Ideal.ofBits_def, Ideal.ofBits_zero_f32,
    Ideal.mulf_def, zero_add]
  rfl

/-- The reference's clamped norm of row (b, n) of this input, as broadcast to every entry (b, n, k) of the row. -/
theorem norm_fk (x2 : Arr3) (b : Fin 8) (n : Fin 8192) (k : Fin 512) :
    val_main_v24 (F := Ideal) x2 (ix3 b n k) = cnorm (row x2 b n) := by
  have e : ∀ k' : Fin 512, idx_main_v19 (idx_main_v20 (idx_main_v24 (ix3 b n k))) k' = ix3 b n k' := fun k' =>
    funext fun a => Fin.ext (by match a with | ⟨0, _⟩ => rfl | ⟨1, _⟩ => rfl | ⟨2, _⟩ => rfl)
  rw [val_main_v24_apply, val_main_v23_apply, val_main_v21_apply, val_main_v20_apply, val_main_v19_apply, val_main_v22_apply, val_main_cst_5_apply, val_main_cst_4_apply]
  simp only [e, val_main_v18_apply, Ideal.maximumf_def, Ideal.hostUnary_sqrt_def, Ideal.ofBits_def, Ideal.ofBits_zero_f32,
    Ideal.mulf_def, zero_add]
  rfl

/-- The reference's similarity of row (b, n) of the first input with the same row of the second: the sum over the row
    of the products of the normalised entries. -/
theorem table_rl (x0 x1 : Arr3) (b : Fin 8) (n : Fin 8192) :
    val_main_v17 (F := Ideal) x0 x1 (ix2 b n) = cosR (row x0 b n) (row x1 b n) := by
  have e : ∀ k : Fin 512, idx_main_v17 (ix2 b n) k = ix3 b n k := fun k =>
    funext fun a => Fin.ext (by match a with | ⟨0, _⟩ => rfl | ⟨1, _⟩ => rfl | ⟨2, _⟩ => rfl)
  rw [val_main_v17_apply, val_main_cst_3_apply]
  simp only [e, val_main_v16_apply, val_main_v7_apply, val_main_v15_apply, norm_s, norm_rl, Ideal.ofBits_def, Ideal.ofBits_zero_f32,
    Ideal.mulf_def, Ideal.hostDivf_def, zero_add]
  rfl

/-- The reference's similarity of row (b, n) of the first input with the same row of the second: the sum over the row
    of the products of the normalised entries. -/
theorem table_fk (x0 x2 : Arr3) (b : Fin 8) (n : Fin 8192) :
    val_main_v27 (F := Ideal) x0 x2 (ix2 b n) = cosR (row x0 b n) (row x2 b n) := by
  have e : ∀ k : Fin 512, idx_main_v27 (ix2 b n) k = ix3 b n k := fun k =>
    funext fun a => Fin.ext (by match a with | ⟨0, _⟩ => rfl | ⟨1, _⟩ => rfl | ⟨2, _⟩ => rfl)
  rw [val_main_v27_apply, val_main_cst_6_apply]
  simp only [e, val_main_v26_apply, val_main_v7_apply, val_main_v25_apply, norm_s, norm_fk, Ideal.ofBits_def, Ideal.ofBits_zero_f32,
    Ideal.mulf_def, Ideal.hostDivf_def, zero_add]
  rfl

/-- The reference's result array is the specification's table of cosR. -/
theorem result_eq (x0 x1 x2 : Arr3) : val_main_v28 (F := Ideal) x0 x1 x2 = table cosR x0 x1 x2 := by
  funext i
  obtain ⟨b, j, rfl⟩ : ∃ (b : Fin 8) (j : Fin 16384), i = ix2 b j := ⟨i 0, i 1, eq_ix2 i⟩
  rw [table_ix2]
  unfold val_main_v28 tableAt
  refine (Cert.LibConcat.concat_cols_apply (a := 8) (n1 := 8192) (n2 := 8192) (n := 16384)
    (val_main_v17 (F := Ideal) x0 x1) (val_main_v27 (F := Ideal) x0 x2) concatenates_S8x8192_S8x8192_S8x16384_d1 (by norm_num) b j).trans ?_
  by_cases h : j.val < 8192
  · rw [dif_pos h, dif_pos h]; exact table_rl x0 x1 b _
  · rw [dif_neg h, dif_neg h]; exact table_fk x0 x2 b _

end Cert.ReferenceIdeal.RefSpec

end
-- ==== Proof.LibMidAxis.lean ====
/-
  Two re-layouts of a row-major array, read at coordinates.

  * [a, b] viewed as [a, 1, b] (a unit axis inserted between the two): entry (i, 0, j) is entry (i, j).
  * [a, b, c] viewed as [a, b·c] (the last two axes flattened): entry (i, p·c + q) is entry (i, p, q).
  Both are statements about row-major positions: (i·1 + 0)·b + j = i·b + j, and (i·b + p)·c + q = i·(b·c) + (p·c + q).
  Generic in the extents and the element type.
-/
import Idealize.ShloMosaic.Lib.Pipeline.Value
import Idealize.ShloMosaic.Lib.ValueIdx

namespace Cert.LibMidAxis

open Idealize.ShloMosaic Idealize.ShloMosaic.ValueIdx

variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b, c] array cast to [a, n] with n = b·c reads, at (i, j) with j = p·c + q, the operand at (i, p, q). -/
theorem shapeCast_abc_an_apply {a b c n : ℕ} (x : (⟨3, ![a, b, c]⟩ : Shape).Idx → α)
    (h : (⟨3, ![a, b, c]⟩ : Shape).ShapeCasts ⟨2, ![a, n]⟩) (hn : n = b * c) (i : Fin a) (p : Fin b) (q : Fin c) (j : Fin n)
    (hj : j.val = p.val * c + q.val) :
    shapeCast ⟨2, ![a, n]⟩ x h (ix2 i j) = x (ix3 i p q) :=
  shapeCast_apply x h _ _ (by
    rw [Shape.rowMajor_val_three, Shape.rowMajor_val_two]
    show (i.val * b + p.val) * c + q.val = i.val * n + j.val
    rw [hj, hn]; ring)

end Cert.LibMidAxis
-- ==== Proof.KernelBlock.lean ====
/-
  What the kernel body leaves in its output block, as one function of its three input blocks.

  At a grid point the body holds three [8, 256, 512] blocks x0, x1, x2 (256 rows of each batch entry) and fills an
  [8, 2, 256] block: plane 0 with, for each (b, n), the dot product of row (b, n) of x0 and x1 over the product of
  their clamped norms, and plane 1 with the same for x0 and x2.  Each lane sum over the last axis is the sum of the
  row's 512 entries, the square root, maximum and quotient act entry by entry, and the final cast only inserts the
  plane axis: so each of the two stored planes is cosK of two rows, and the block is blockFn below.
-/
import proofs.«147456_j73598559584743_2_alg».proof.Proof.Gen.KernelIdeal.Frame
import proofs.«147456_j73598559584743_2_alg».proof.Proof.CosSpec
import proofs.«147456_j73598559584743_2_alg».proof.Proof.LibMidAxis
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen Cert.CosSpec
open Idealize.ShloMosaic Idealize.ShloMosaic.ValueIdx

/-- The lane sum of an [8, 256, 512] block over its last axis, at (b, n): the sum of row (b, n). -/
theorem laneSum_at (v : FVec Ideal S8x256x512 .f32) (b : Fin 8) (n : Fin 256) :
    multiReduction (F := Ideal) .add [2] S8x256 v 0x00000000#32 reduces_S8x256x512_S8x256 (.inl rfl) rfl (ix2 b n)
      = ∑ k : Fin 512, v (ix3 b n k) :=
  (Ideal.multiReduction_add_single v 0x00000000#32 reduces_S8x256x512_S8x256 (.inl rfl) rfl (ix2 b n)).trans
    (Finset.sum_congr rfl fun k _ => congrArg v (funext fun a => Fin.ext (by
      match a with | ⟨0, _⟩ => rfl | ⟨1, _⟩ => rfl | ⟨2, _⟩ => rfl)))

/-- Row (b, n) of a block: its 512 entries. -/
def brow (x : Vec Ideal S8x256x512 .f32) (b : Fin 8) (n : Fin 256) : Fin 512 → EReal := fun k => x (ix3 b n k)

/-- The first stored plane at (b, ·, n): the similarity of rows (b, n) of the first and second blocks. -/
theorem pay_rl_at (x0 x1 : Vec Ideal S8x256x512 .f32) (b : Fin 8) (u : Fin 1) (n : Fin 256) :
    k0_pay2 (F := Ideal) x0 x1 (ix3 b u n) = cosK (brow x0 b n) (brow x1 b n) := by
  unfold k0_pay2 k0_pay1
  refine (Cert.LibMidAxis.shapeCast_ab_a1b_apply _ _ b u n).trans ?_
  show Ideal.div
      (multiReduction (F := Ideal) .add [2] S8x256 (mulf x0 x1) 0x00000000#32 reduces_S8x256x512_S8x256 (.inl rfl) rfl (ix2 b n))
      (max (Ideal.sqrt (multiReduction (F := Ideal) .add [2] S8x256 (mulf x0 x0) 0x00000000#32 reduces_S8x256x512_S8x256 (.inl rfl) rfl (ix2 b n)))
          (Ideal.ofBits .f32 0x2B8CBCCC#32)
        * max (Ideal.sqrt (multiReduction (F := Ideal) .add [2] S8x256 (mulf x1 x1) 0x00000000#32 reduces_S8x256x512_S8x256 (.inl rfl) rfl (ix2 b n)))
          (Ideal.ofBits .f32 0x2B8CBCCC#32)) = _
  rw [laneSum_at, laneSum_at, laneSum_at]
  rfl

/-- The second stored plane at (b, ·, n): the similarity of rows (b, n) of the first and third blocks. -/
theorem pay_fk_at (x0 x2 : Vec Ideal S8x256x512 .f32) (b : Fin 8) (u : Fin 1) (n : Fin 256) :
    k0_pay3 (F := Ideal) x0 x2 (ix3 b u n) = cosK (brow x0 b n) (brow x2 b n) := by
  unfold k0_pay3 k0_pay1
  refine (Cert.LibMidAxis.shapeCast_ab_a1b_apply _ _ b u n).trans ?_
  show Ideal.div
      (multiReduction (F := Ideal) .add [2] S8x256 (mulf x0 x2) 0x00000000#32 reduces_S8x256x512_S8x256 (.inl rfl) rfl (ix2 b n))
      (max (Ideal.sqrt (multiReduction (F := Ideal) .add [2] S8x256 (mulf x0 x0) 0x00000000#32 reduces_S8x256x512_S8x256 (.inl rfl) rfl (ix2 b n)))
          (Ideal.ofBits .f32 0x2B8CBCCC#32)
        * max (Ideal.sqrt (multiReduction (F := Ideal) .add [2] S8x256 (mulf x2 x2) 0x00000000#32 reduces_S8x256x512_S8x256 (.inl rfl) rfl (ix2 b n)))
          (Ideal.ofBits .f32 0x2B8CBCCC#32)) = _
  rw [laneSum_at, laneSum_at, laneSum_at]
  rfl

/-- Entry (b, p, n) of the output block: plane 0 compares the first block with the second, plane 1 with the third. -/
def blockAt (x0 x1 x2 : Vec Ideal S8x256x512 .f32) (b : Fin 8) (p : Fin 2) (n : Fin 256) : EReal :=
  if p.val = 0 then cosK (brow x0 b n) (brow x1 b n) else cosK (brow x0 b n) (brow x2 b n)

/-- The output block as a function of the three input blocks. -/
def blockFn (x0 x1 x2 : Vec Ideal S8x256x512 .f32) : S8x2x256.Idx → EReal :=
  fun y => blockAt x0 x1 x2 (y 0) (y 1) (y 2)

theorem blockFn_ix3 (x0 x1 x2 : Vec Ideal S8x256x512 .f32) (b : Fin 8) (p : Fin 2) (n : Fin 256) :
    blockFn x0 x1 x2 (ix3 b p n) = blockAt x0 x1 x2 b p n := rfl

theorem hz3 : (![0, 0, 0] : Fin 3 → Nat) = fun _ => 0 := funext fun a => by fin_cases a <;> rfl

/-- The second store's rectangle (plane 1) sends (b, ·, n) to (b, 1, n). -/
theorem emb_plane1 (b : Fin 8) (u : Fin 1) (n : Fin 256) : r0_2.emb (ix3 b u n) = ix3 b (1 : Fin 2) n := by
  have hu : u.val = 0 := by omega
  funext a; apply Fin.ext
  match a with
  | ⟨0, _⟩ => show 0 + 1 * b.val = b.val; omega
  | ⟨1, _⟩ => show 1 + 1 * u.val = 1; omega
  | ⟨2, _⟩ => show 0 + 1 * n.val = n.val; omega

/-- The first store's rectangle (plane 0) sends (b, ·, n) to (b, 0, n). -/
theorem emb_plane0 (b : Fin 8) (u : Fin 1) (n : Fin 256) : r0_1.emb (ix3 b u n) = ix3 b (0 : Fin 2) n := by
  have hu : u.val = 0 := by omega
  funext a; apply Fin.ext
  match a with
  | ⟨0, _⟩ => show 0 + 1 * b.val = b.val; omega
  | ⟨1, _⟩ => show 0 + 1 * u.val = 0; omega
  | ⟨2, _⟩ => show 0 + 1 * n.val = n.val; omega

/-- What the body leaves in the output block is blockFn of the three input blocks: each of the two stores' payloads
    is blockFn read through the store's rectangle, and the two rectangles cover the block. -/
theorem out_eq (x0 x1 x2 : Vec Ideal S8x256x512 .f32) : out0_3 (F := Ideal) x0 x1 x2 = blockFn x0 x1 x2 := by
  funext y
  unfold out0_3
  simp only [View.ld_unit_zero (S := S8x256x512) hz3]
  refine View.canon_apply_of_pieces (Val := Elt Ideal) (S := S8x2x256) (e := .f32) (blockFn x0 x1 x2) _ ?_ y (cover0_3 _ _ y)
  intro p hp x
  simp only [List.mem_cons, List.mem_nil_iff, or_false] at hp
  rcases hp with rfl | rfl
  · obtain ⟨b, u, n, rfl⟩ : ∃ (b : Fin 8) (u : Fin 1) (n : Fin 256), x = ix3 b u n := ⟨x 0, x 1, x 2, eq_ix3 x⟩
    show k0_pay3 (F := Ideal) x0 x2 (ix3 b u n) = blockFn x0 x1 x2 (r0_2.emb (ix3 b u n))
    rw [pay_fk_at, emb_plane1, blockFn_ix3]
    rfl
  · obtain ⟨b, u, n, rfl⟩ : ∃ (b : Fin 8) (u : Fin 1) (n : Fin 256), x = ix3 b u n := ⟨x 0, x 1, x 2, eq_ix3 x⟩
    show k0_pay2 (F := Ideal) x0 x1 (ix3 b u n) = blockFn x0 x1 x2 (r0_1.emb (ix3 b u n))
    rw [pay_rl_at, emb_plane0, blockFn_ix3]
    rfl

end Cert.KernelIdeal.KValue

end
-- ==== Proof.KernelArray.lean ====
/-
  The [8, 2, 8192] array the kernel's region leaves, as one function of the three input arrays.

  Grid point t handles rows 256·t … 256·t + 255 of every batch entry: each input block is those rows of its array, and
  the output block is planes 0 and 1 of the result at those rows.  So what point t writes back is block t of the
  whole-array function `planes` — plane 0 the similarity of s with h_rl row by row, plane 1 that of s with h_fk —,
  and since the 32 blocks tile the array (row r lies in block r / 256), the array ends holding `planes`.
-/
import proofs.«147456_j73598559584743_2_alg».proof.Proof.KernelBlock
import Idealize.ShloMosaic.Lib.Pipeline.Value

set_option maxRecDepth 16384

noncomputable section

namespace Cert.KernelIdeal.KValue

open Cert.KernelIdeal Cert.KernelIdeal.Gen Cert.CosSpec
open Idealize.ShloMosaic Idealize.ShloMosaic.TcCoe Idealize.ShloMosaic.ValueIdx Idealize.SL.Sem
open Idealize.ShloMosaic.Pipeline (Dat)

/-- Entry (b, p, n) of the region's result: plane 0 compares s with h_rl, plane 1 compares s with h_fk, row (b, n). -/
def planesAt (s hrl hfk : Arr3) (b : Fin 8) (p : Fin 2) (n : Fin 8192) : EReal :=
  if p.val = 0 then cosK (row s b n) (row hrl b n) else cosK (row s b n) (row hfk b n)

/-- The region's result array [8, 2, 8192]. -/
def planes (s hrl hfk : Arr3) : S8x2x8192.Idx → EReal := fun i => planesAt s hrl hfk (i 0) (i 1) (i 2)

theorem planes_ix3 (s hrl hfk : Arr3) (b : Fin 8) (p : Fin 2) (n : Fin 8192) :
    planes s hrl hfk (ix3 b p n) = planesAt s hrl hfk b p n := rfl

/-- If three blocks hold rows 256·q … 256·q + 255 of three arrays, the output block's entry (b, p, n) is the result's
    entry (b, p, 256·q + n). -/
theorem blockAt_eq_planesAt (A0 A1 A2 : Arr3) (X0 X1 X2 : Vec Ideal S8x256x512 .f32) (q : ℕ) (hq : q ≤ 31)
    (h0 : ∀ (b : Fin 8) (n : Fin 256) (k : Fin 512), X0 (ix3 b n k) = A0 (ix3 b ⟨q * 256 + n.val, by omega⟩ k))
    (h1 : ∀ (b : Fin 8) (n : Fin 256) (k : Fin 512), X1 (ix3 b n k) = A1 (ix3 b ⟨q * 256 + n.val, by omega⟩ k))
    (h2 : ∀ (b : Fin 8) (n : Fin 256) (k : Fin 512), X2 (ix3 b n k) = A2 (ix3 b ⟨q * 256 + n.val, by omega⟩ k))
    (b : Fin 8) (p : Fin 2) (n : Fin 256) :
    blockAt X0 X1 X2 b p n = planesAt A0 A1 A2 b p ⟨q * 256 + n.val, by omega⟩ := by
  have e0 : brow X0 b n = row A0 b ⟨q * 256 + n.val, by omega⟩ := funext fun k => h0 b n k
  have e1 : brow X1 b n = row A1 b ⟨q * 256 + n.val, by omega⟩ := funext fun k => h1 b n k
  have e2 : brow X2 b n = row A2 b ⟨q * 256 + n.val, by omega⟩ := funext fun k => h2 b n k
  unfold blockAt planesAt
  rw [e0, e1, e2]

variable (m : (ℓ : Loc nD τ sig) → Buf (Elt Ideal) ℓ)

/-- The printed index maps, decided over the 32 grid points: every input block sits at block row (0, t, 0) of its
    array and the output block at (0, 0, t) of the result. -/
theorem idx_facts : ∀ t : Fin cfg0.N,
    win0_0.index t (0 : Fin 3) = 0 ∧ win0_0.index t (1 : Fin 3) = win0_3.index t (2 : Fin 3) ∧ win0_0.index t (2 : Fin 3) = 0
    ∧ win0_1.index t (0 : Fin 3) = 0 ∧ win0_1.index t (1 : Fin 3) = win0_3.index t (2 : Fin 3) ∧ win0_1.index t (2 : Fin 3) = 0
    ∧ win0_2.index t (0 : Fin 3) = 0 ∧ win0_2.index t (1 : Fin 3) = win0_3.index t (2 : Fin 3) ∧ win0_2.index t (2 : Fin 3) = 0
    ∧ win0_3.index t (0 : Fin 3) = 0 ∧ win0_3.index t (1 : Fin 3) = 0 ∧ win0_3.index t (2 : Fin 3) ≤ 31 :=
  (by decide +kernel : ∀ t : Fin grid0.N, _)

/-- Every block row of the result is some grid point's. -/
theorem idx_onto : ∀ q : Fin 32, ∃ t : Fin cfg0.N, win0_3.index t = ![0, 0, q.val] :=
  (by decide +kernel : ∀ q : Fin 32, ∃ t : Fin grid0.N, win0_3.index t = ![0, 0, q.val])

/-- What grid point t writes back is block t of `planes` of the argument arrays as the region finds them. -/
theorem flushed_eq (c : Dev nD) (t : Fin cfg0.N) :
    (dats m 0 c).flushed 3 t
      = ((cfg0.win 3).blk t).view.read (Elt Ideal) (planes (V m c main_arg0) (V m c main_arg1) (V m c main_arg2)) := by
  show (cfg0.win 3).cut (grid0.coords t) ((dats m 0 c).after 3 t) = _
  rw [after0_3, out_eq]
  obtain ⟨a00, a01, a02, a10, a11, a12, a20, a21, a22, a30, a31, a32⟩ := idx_facts t
  funext j
  obtain ⟨b, p, n, rfl⟩ : ∃ (b : Fin 8) (p : Fin 2) (n : Fin 256), j = ix3 b p n := ⟨j 0, j 1, j 2, eq_ix3 j⟩
  have e3 : ((cfg0.win 3).blk t).view.emb (ix3 b p n) = ix3 b p ⟨win0_3.index t (2 : Fin 3) * 256 + n.val, by omega⟩ := by
    funext a; apply Fin.ext
    match a with
    | ⟨0, _⟩ => show win0_3.index t (0 : Fin 3) * 8 + 1 * b.val = b.val; omega
    | ⟨1, _⟩ => show win0_3.index t (1 : Fin 3) * 2 + 1 * p.val = p.val; omega
    | ⟨2, _⟩ => show win0_3.index t (2 : Fin 3) * 256 + 1 * n.val = win0_3.index t (2 : Fin 3) * 256 + n.val; omega
  show blockAt (iblk m c 0 t) (iblk m c 1 t) (iblk m c 2 t) b p n
      = planes (V m c main_arg0) (V m c main_arg1) (V m c main_arg2) (((cfg0.win 3).blk t).view.emb (ix3 b p n))
  rw [e3, planes_ix3]
  refine blockAt_eq_planesAt _ _ _ _ _ _ (win0_3.index t (2 : Fin 3)) a32 ?_ ?_ ?_ b p n
  · intro b' n' k
    show V m c main_arg0 (((cfg0.win 0).blk t).view.emb (ix3 b' n' k)) = V m c main_arg0 _
    refine congrArg (V m c main_arg0) (funext fun a => Fin.ext ?_)
    match a with
    | ⟨0, _⟩ => show win0_0.index t (0 : Fin 3) * 8 + 1 * b'.val = b'.val; omega
    | ⟨1, _⟩ => show win0_0.index t (1 : Fin 3) * 256 + 1 * n'.val = win0_3.index t (2 : Fin 3) * 256 + n'.val; omega
    | ⟨2, _⟩ => show win0_0.index t (2 : Fin 3) * 512 + 1 * k.val = k.val; omega
  · intro b' n' k
    show V m c main_arg1 (((cfg0.win 1).blk t).view.emb (ix3 b' n' k)) = V m c main_arg1 _
    refine congrArg (V m c main_arg1) (funext fun a => Fin.ext ?_)
    match a with
    | ⟨0, _⟩ => show win0_1.index t (0 : Fin 3) * 8 + 1 * b'.val = b'.val; omega
    | ⟨1, _⟩ => show win0_1.index t (1 : Fin 3) * 256 + 1 * n'.val = win0_3.index t (2 : Fin 3) * 256 + n'.val; omega
    | ⟨2, _⟩ => show win0_1.index t (2 : Fin 3) * 512 + 1 * k.val = k.val; omega
  · intro b' n' k
    show V m c main_arg2 (((cfg0.win 2).blk t).view.emb (ix3 b' n' k)) = V m c main_arg2 _
    refine congrArg (V m c main_arg2) (funext fun a => Fin.ext ?_)
    match a with
    | ⟨0, _⟩ => show win0_2.index t (0 : Fin 3) * 8 + 1 * b'.val = b'.val; omega
    | ⟨1, _⟩ => show win0_2.index t (1 : Fin 3) * 256 + 1 * n'.val = win0_3.index t (2 : Fin 3) * 256 + n'.val; omega
    | ⟨2, _⟩ => show win0_2.index t (2 : Fin 3) * 512 + 1 * k.val = k.val; omega

/-- An index of the result is in point t's block iff each coordinate is in the block's range on its axis. -/
theorem mem_blk (t : Fin cfg0.N) (i : S8x2x8192.Idx) :
    i ∈ ((cfg0.win 3).blk t).view.set ↔ ∀ a : Fin 3, win0_3.index t a * S8x2x256.size a ≤ (i a).val
      ∧ (i a).val < win0_3.index t a * S8x2x256.size a + S8x2x256.size a := by
  show i ∈ ((View.whole main_v0).slice (win0_3.rect t)).set ↔ _
  rw [View.set_slice_whole, Rect.mem_set_unit]
  exact Iff.rfl

/-- The 32 blocks tile the result: row r of either plane lies in block r / 256. -/
theorem covered (i : S8x2x8192.Idx) :
    ∃ t : Fin cfg0.N, (cfg0.win 3).flush t = true ∧ i ∈ ((cfg0.win 3).blk t).view.set := by
  have hi0 : (i 0).val < 8 := (i 0).isLt
  have hi1 : (i 1).val < 2 := (i 1).isLt
  have hi2 : (i 2).val < 8192 := (i 2).isLt
  obtain ⟨t, ht⟩ := idx_onto ⟨(i 2).val / 256, by omega⟩
  have q0 : win0_3.index t (0 : Fin 3) = 0 := congrFun ht 0
  have q1 : win0_3.index t (1 : Fin 3) = 0 := congrFun ht 1
  have q2 : win0_3.index t (2 : Fin 3) = (i 2).val / 256 := congrFun ht 2
  refine ⟨t, flush0_3 t, ?_⟩
  rw [mem_blk]
  intro a
  match a with
  | ⟨0, _⟩ => show win0_3.index t (0 : Fin 3) * 8 ≤ (i 0).val ∧ (i 0).val < win0_3.index t (0 : Fin 3) * 8 + 8; omega
  | ⟨1, _⟩ => show win0_3.index t (1 : Fin 3) * 2 ≤ (i 1).val ∧ (i 1).val < win0_3.index t (1 : Fin 3) * 2 + 2; omega
  | ⟨2, _⟩ => show win0_3.index t (2 : Fin 3) * 256 ≤ (i 2).val ∧ (i 2).val < win0_3.index t (2 : Fin 3) * 256 + 256; omega

/-- The region's result array after the run. -/
theorem final (c : Dev nD) :
    (dats m 0 c).arrAt 3 cfg0.N = planes (V m c main_arg0) (V m c main_arg1) (V m c main_arg2) :=
  (dats m 0 c).arrAt_eq_of_cover 3 (planes (V m c main_arg0) (V m c main_arg1) (V m c main_arg2))
    (fun t _ => flushed_eq m c t) covered

end Cert.KernelIdeal.KValue

end
-- ==== Proof.KernelRun.lean ====
/-
  The kernel program's run, read: its result is the specification's table of cosK of the three arguments.

  After the region the program views its [8, 2, 8192] result as [8, 16384]: entry (b, j) of the view is entry
  (b, j / 8192, j mod 8192) of the array, that is plane 0 at row j for j < 8192 and plane 1 at row j − 8192 otherwise —
  the two similarity tables side by side, which is the specification's `table cosK`.  The region's array is `planes`
  of the arguments (KernelArray), the arguments themselves are staged inputs and end as they began.
-/
import proofs.«147456_j73598559584743_2_alg».proof.Proof.KernelArray
import Idealize.ShloMosaic.Lib.StableHlo.Run

set_option maxRecDepth 16384

noncomputable section

namespace Cert.KernelIdeal.KValue

open Cert.KernelIdeal Cert.KernelIdeal.Gen Cert.CosSpec
open Idealize.ShloMosaic Idealize.ShloMosaic.TcCoe Idealize.ShloMosaic.ValueIdx Idealize.SL.Sem
open Idealize.ShloMosaic.StableHlo

/-- The two planes laid side by side: entry (b, j / 8192, j mod 8192) of `planes` is entry (b, j) of the table. -/
theorem planesAt_flat (s hrl hfk : Arr3) (b : Fin 8) (j : Fin 16384) :
    planesAt s hrl hfk b ⟨j.val / 8192, by omega⟩ ⟨j.val % 8192, by omega⟩ = tableAt cosK s hrl hfk b j := by
  unfold planesAt tableAt
  by_cases h : j.val < 8192
  · have h0 : j.val / 8192 = 0 := by omega
    have e : (⟨j.val % 8192, by omega⟩ : Fin 8192) = ⟨j.val, h⟩ := Fin.ext (by show j.val % 8192 = j.val; omega)
    rw [dif_pos h, if_pos h0, e]
  · have h0 : ¬ j.val / 8192 = 0 := by omega
    have e : (⟨j.val % 8192, by omega⟩ : Fin 8192) = ⟨j.val - 8192, by omega⟩ :=
      Fin.ext (by show j.val % 8192 = j.val - 8192; omega)
    rw [dif_neg h, if_neg h0, e]

/-- The [8, 2, 8192] result viewed as [8, 16384] is the table. -/
theorem flat_eq (s hrl hfk : Arr3) (h : S8x2x8192.ShapeCasts S8x16384) :
    shapeCast S8x16384 (planes s hrl hfk) h = table cosK s hrl hfk := by
  funext i
  obtain ⟨b, j, rfl⟩ : ∃ (b : Fin 8) (j : Fin 16384), i = ix2 b j := ⟨i 0, i 1, eq_ix2 i⟩
  rw [Cert.LibMidAxis.shapeCast_abc_an_apply (a := 8) (b := 2) (c := 8192) (n := 16384) (planes s hrl hfk) h (by norm_num)
    b ⟨j.val / 8192, by omega⟩ ⟨j.val % 8192, by omega⟩ j (by show j.val = j.val / 8192 * 8192 + j.val % 8192; omega)]
  rw [planes_ix3, table_ix2]
  exact planesAt_flat s hrl hfk b j

variable (m : (ℓ : Loc nD τ sig) → Buf (Elt Ideal) ℓ) (ρ : Dev nD → PrngReg)

/-- What the line after the region leaves in the program's result buffer. -/
theorem tail_eq (c : Dev nD) :
    Pipeline.afterTail₀ cfgs (dats m) 0 (V0 m) [hostOps1] c main_v1
      = table cosK (m ((c : Thread nD τ).loc main_arg0)) (m ((c : Thread nD τ).loc main_arg1)) (m ((c : Thread nD τ).loc main_arg2)) := by
  unfold Pipeline.afterTail₀
  show StableHlo.after hostOps1 _ (Proc.devRef .tc main_v1) = _
  after_results
  rw [(Pipeline.withArrays_arr spec0 launch0.win.arr_inj c _ _ 3).trans (final m c)]
  exact flat_eq _ _ _ _

/-- The kernel program's run: every weakly fair execution terminates with the result at the table of cosK of the
    arguments, and the arguments unchanged. -/
theorem run : θ_run defs (onTc (τ := τ) (main (F := Ideal))) ⟨m, fun _ => 0, ρ⟩ fun r => ∀ c : Dev nD,
      r.2.mem ((c.tc : Thread nD τ).loc main_v1)
        = table cosK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.KValue

end
-- ==== Proof.CosLaw.lean ====
/-
  The cosine-similarity law on rows of reals.

  For rows x, y whose entries are all real, the clamped norms a = ‖x‖' and b = ‖y‖' are positive reals, so every
  quotient is a product with a real reciprocal and the two arrangements of the similarity agree:
    Σ (x k / a) · (y k / b) = (Σ x k · y k) / (a · b).
-/
import Idealize.ShloMosaic.PureOps.Ideal
import Idealize.ShloMosaic.PureOps.Ideal.Laws
import proofs.«147456_j73598559584743_2_alg».proof.Proof.CosSpec

noncomputable section

open Idealize.ShloMosaic

open Cert.CosSpec

namespace Cert.CosLaw

/-- The coercion of reals into the extended reals commutes with finite sums. -/
theorem coe_sum {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The clamp is a positive real: the word 0x2B8CBCCC has sign bit 0, biased exponent 87
    and significand field 0x0CBCCC, so it denotes (2^23 + 0x0CBCCC) * 2^(87 - 127 - 23) > 0. -/
theorem eps_pos : ∃ e : ℝ, 0 < e ∧ eps = (e : EReal) := by
  unfold eps
  simp [Ideal.ofBits, Ideal.ieee, -EReal.coe_mul]

/-- The clamped norm of a row of reals is a positive real: the sum of squares is a
    nonnegative real, its square root is a real, and the maximum with a positive real
    is a positive real. -/
theorem cnorm_real {n : ℕ} (x : Fin n → EReal) (hx : ∀ k, ∃ r : ℝ, x k = (r : EReal)) :
    ∃ a : ℝ, 0 < a ∧ cnorm x = (a : EReal) := by
  choose xr hxr using hx
  obtain ⟨e, he, hee⟩ := eps_pos
  refine ⟨max (Real.sqrt (∑ k, xr k * xr k)) e, lt_max_of_lt_right he, ?_⟩
  have h0 : ¬ (∑ k, xr k * xr k) < 0 :=
    not_lt.mpr (Finset.sum_nonneg fun k _ => mul_self_nonneg _)
  unfold cnorm
  simp only [hxr, ← EReal.coe_mul, coe_sum, Ideal.sqrt_coe, if_neg h0, hee]
  exact (EReal.coe_strictMono.monotone.map_max).symm

/-- On rows of reals, summing the products of the normalised entries equals dividing the
    dot product by the product of the clamped norms: with a, b > 0 real,
    Σ (x k / a) * (y k / b) = (Σ x k * y k) / (a * b). -/
theorem cosR_eq_cosK {n : ℕ} (x y : Fin n → EReal)
    (hx : ∀ k, ∃ r : ℝ, x k = (r : EReal)) (hy : ∀ k, ∃ r : ℝ, y k = (r : EReal)) :
    cosR x y = cosK x y := by
  obtain ⟨a, ha, hae⟩ := cnorm_real x hx
  obtain ⟨b, hb, hbe⟩ := cnorm_real y hy
  choose xr hxr using hx
  choose yr hyr using hy
  unfold cosR cosK
  simp only [hae, hbe, ← EReal.coe_mul, Ideal.div_coe (mul_pos ha hb).ne',
    Ideal.div_coe ha.ne', Ideal.div_coe hb.ne', hxr, hyr, coe_sum]
  rw [EReal.coe_eq_coe_iff, Finset.sum_mul]
  refine Finset.sum_congr rfl fun k _ => ?_
  field_simp

end Cert.CosLaw

end
-- ==== Proof.FiniteInputs.lean ====
/-
  Finite inputs are real numbers. The precondition is the printed predicate
  all(|x0| < +inf) & all(|x1| < +inf) & all(|x2| < +inf), a rank-0 array of one bit, stated equal to 1.
  Read back: the outer conjunctions split (a bitwise and of one-bit words is 1 only when both are), each
  reduction by "and" over all three axes being 1 makes every compared bit 1, and one such bit says
  max x (-x) < ⊤ in the extended reals, which excludes both ⊥ and ⊤: the entry is the coercion of a real.
-/
import proofs.«147456_j73598559584743_2_alg».proof.Defs
import proofs.«147456_j73598559584743_2_alg».proof.Proof.Gen.Pre_finite_inputs
import Idealize.ShloMosaic.Lib.ReduceAll
import Idealize.ShloMosaic.Lib.ValueIdx

noncomputable section

namespace Cert.FiniteInputs

open Idealize.ShloMosaic Idealize.SL.Sem

/-- An extended real whose absolute value `max x (-x)` lies below `⊤` is a real number:
    at `⊥` and at `⊤` that maximum is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` (sign 0, exponent all ones, fraction 0) denotes `+∞`. -/
theorem inf_eq_top : Ideal.ofBits .f32 0x7F800000#32 = (⊤ : EReal) := by
  simp [Ideal.ofBits, Ideal.ieee]

/-- The comparison `|x| < +∞` answering 1 says `x` is a real number. -/
theorem real_of_cmp (x : EReal)
    (h : Ideal.cmp .olt (max x (-x)) (Ideal.ofBits .f32 0x7F800000#32) = 1#1) : ∃ r : ℝ, x = (r : EReal) := by
  apply real_of_abs_lt_top
  rw [inf_eq_top] at h
  by_contra hn
  simp [Ideal.cmp, hn] at h

/-- The scalar shape has one index. -/
instance : Subsingleton Cert.Pre_finite_inputs.S_.Idx := ⟨fun a b => funext fun d => d.elim0⟩

open Cert.Pre_finite_inputs in
/-- One `all(|x| < +inf)`: the reduction by `and` over all three axes being 1 makes every entry a real. -/
theorem reals_of_all (x : FVec Ideal S8x8192x512 .f32)
    (hb : S_.BroadcastsInDim S8x8192x512 (![] : Fin 0 → Fin S8x8192x512.rank))
    (hr : S8x8192x512.ReducesTo [0, 1, 2] S_) (hn : 0 < S_.numel)
    (e : Host.reduce IntOp.andi
          (cmpf .olt (Host.absf x) (broadcastInDim S8x8192x512 ![] hb (constant S_ .f32 0x7F800000#32)))
          (constantI S_ 1 1#1) hr hn ValueIdx.ix0 = 1#1) :
    ∀ i, ∃ r : ℝ, x i = (r : EReal) := by
  intro i
  have hi := Host.reduce_andi_all _ _ hr hn _ e i
  exact real_of_cmp (x i) hi

theorem reals_of_fn [Cert.Pre_finite_inputs.Facts]
    (x0 x1 x2 : FVec Ideal Cert.Pre_finite_inputs.S8x8192x512 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn] at h0
  obtain ⟨h01, e2⟩ := IntOp.andi_eq_one.1 h0
  obtain ⟨e0, e1⟩ := IntOp.andi_eq_one.1 h01
  exact ⟨reals_of_all x0 _ _ _ e0, reals_of_all x1 _ _ _ e1, reals_of_all x2 _ _ _ e2⟩

theorem reals_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal)) :=
  reals_of_fn _ _ _ (h c)

end Cert.FiniteInputs
-- ==== Proof.lean ====
/-
  The kernel and its reference compute the same [8, 16384] array of row-wise cosine similarities on finite inputs.

  For s, h_rl, h_fk : [8, 8192, 512] the result holds, at (b, j), the similarity of row (b, j) of s with the same row
  of h_rl when j < 8192, and of row (b, j − 8192) of s with that row of h_fk otherwise, every norm clamped below by
  eps = 1e-12 (Proof/CosSpec.lean).
  * The kernel handles 256 rows per grid point, forms the dot product and the two clamped norms of each pair of rows
    and divides once: (Σ x·y) / (‖x‖'·‖y‖') (cosK), into an [8, 2, 8192] array which the program then views as
    [8, 16384] (Proof/KernelBlock.lean, KernelArray.lean, KernelRun.lean, over the generated frame run).
  * The reference normalises each array entry by entry and sums the products: Σ (x/‖x‖')·(y/‖y‖') (cosR), and joins
    the two [8, 8192] tables (Proof/RefIsSpec.lean, over the reference's run read one operation at a time).
  * On real entries the clamped norms are positive reals and the two arrangements agree (Proof/CosLaw.lean); that
    every entry is real is the precondition, read back (Proof/FiniteInputs.lean).  At an infinite entry the two
    arrangements can differ, which is why the precondition is used.
  The three frames are the generated ones (the reference's is its run with the result dropped), and the kernel's
  idealization rewrote nothing, so that conjunct is `True`.
-/
import proofs.«147456_j73598559584743_2_alg».proof.Defs
import proofs.«147456_j73598559584743_2_alg».proof.Proof.Gen.Kernel
import proofs.«147456_j73598559584743_2_alg».proof.Proof.Gen.Kernel.Skeleton
import proofs.«147456_j73598559584743_2_alg».proof.Proof.Gen.Kernel.Launch
import proofs.«147456_j73598559584743_2_alg».proof.Proof.Gen.Kernel.Points
import proofs.«147456_j73598559584743_2_alg».proof.Proof.Gen.Kernel.Frame
import proofs.«147456_j73598559584743_2_alg».proof.Proof.Gen.KernelIdeal
import proofs.«147456_j73598559584743_2_alg».proof.Proof.Gen.KernelIdeal.Skeleton
import proofs.«147456_j73598559584743_2_alg».proof.Proof.Gen.KernelIdeal.Launch
import proofs.«147456_j73598559584743_2_alg».proof.Proof.Gen.KernelIdeal.Points
import proofs.«147456_j73598559584743_2_alg».proof.Proof.Gen.KernelIdeal.Frame
import proofs.«147456_j73598559584743_2_alg».proof.Proof.Gen.ReferenceIdeal
import proofs.«147456_j73598559584743_2_alg».proof.Proof.Gen.Pre_finite_inputs
import proofs.«147456_j73598559584743_2_alg».proof.Proof.RefRun
import proofs.«147456_j73598559584743_2_alg».proof.Proof.RefRead
import proofs.«147456_j73598559584743_2_alg».proof.Proof.RefIsSpec
import proofs.«147456_j73598559584743_2_alg».proof.Proof.KernelRun
import proofs.«147456_j73598559584743_2_alg».proof.Proof.CosLaw
import proofs.«147456_j73598559584743_2_alg».proof.Proof.FiniteInputs
import Idealize.ShloMosaic.Adequacy
import Idealize.ShloMosaic.Init

noncomputable section

namespace Cert.Proof

open Idealize.ShloMosaic Idealize.SL.Sem Cert.CosSpec

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the three arguments, the kernel ends at the table of cosK of them and the reference at
    the table of cosR of them; the precondition makes every entry real, and on rows of reals cosR = cosK. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v28_eq, Cert.ReferenceIdeal.RefSpec.result_eq,
    (hagree c).1, (hagree c).2.1, (hagree c).2.2]
  obtain ⟨r0, r1, r2⟩ := Cert.FiniteInputs.reals_of_pre m hpre c
  exact table_congr cosR cosK _ _ _
    (fun b n => Cert.CosLaw.cosR_eq_cosK _ _ (fun k => r0 _) (fun k => r1 _))
    (fun b n => Cert.CosLaw.cosR_eq_cosK _ _ (fun k => r0 _) (fun k => r2 _))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
